-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x56x56 : Shape := ⟨4, ![8, 64, 56, 56]⟩
abbrev S64x1x1x32 : Shape := ⟨4, ![64, 1, 1, 32]⟩
abbrev S_ : Shape := ⟨0, ![]⟩

class Facts : Prop where
  bcast_S_S8x64x56x56 : S_.BroadcastsInDim S8x64x56x56 (![] : Fin 0 → Fin S8x64x56x56.rank)
  reducesTo_S8x64x56x56_S_d0_1_2_3 : S8x64x56x56.ReducesTo [0, 1, 2, 3] S_
  h_S_ : 0 < S_.numel
  bcast_S_S64x1x1x32 : S_.BroadcastsInDim S64x1x1x32 (![] : Fin 0 → Fin S64x1x1x32.rank)
  reducesTo_S64x1x1x32_S_d0_1_2_3 : S64x1x1x32.ReducesTo [0, 1, 2, 3] S_

variable [Facts]

def fn {F : FTy → Type} [FloatOps F] (main_arg0 : FVec F S8x64x56x56 .f32) (main_arg1 : FVec F S64x1x1x32 .f32) (main_arg2 : FVec F S64x1x1x32 .f32) : IVec S_ 1 :=
  let main_v0 : FVec F S8x64x56x56 .f32 := Host.absf main_arg0
  let main_cst : FVec F S_ .f32 := constant S_ .f32 0x7F800000#32
  let main_v1 : FVec F S8x64x56x56 .f32 := broadcastInDim S8x64x56x56 ![] bcast_S_S8x64x56x56 main_cst
  let main_v2 : IVec S8x64x56x56 1 := cmpf .olt main_v0 main_v1
  let main_c : IVec S_ 1 := constantI S_ 1 1#1
  let main_v3 : IVec S_ 1 := (fun x v => Host.reduce IntOp.andi x v reducesTo_S8x64x56x56_S_d0_1_2_3 h_S_) main_v2 main_c
  let main_v4 : FVec F S64x1x1x32 .f32 := Host.absf main_arg1
  let main_cst_0 : FVec F S_ .f32 := constant S_ .f32 0x7F800000#32
  let main_v5 : FVec F S64x1x1x32 .f32 := broadcastInDim S64x1x1x32 ![] bcast_S_S64x1x1x32 main_cst_0
  let main_v6 : IVec S64x1x1x32 1 := cmpf .olt main_v4 main_v5
  let main_c_1 : IVec S_ 1 := constantI S_ 1 1#1
  let main_v7 : IVec S_ 1 := (fun x v => Host.reduce IntOp.andi x v reducesTo_S64x1x1x32_S_d0_1_2_3 h_S_) main_v6 main_c_1
  let main_v8 : IVec S_ 1 := andi main_v3 main_v7
  let main_v9 : FVec F S64x1x1x32 .f32 := Host.absf main_arg2
  let main_cst_2 : FVec F S_ .f32 := constant S_ .f32 0x7F800000#32
  let main_v10 : FVec F S64x1x1x32 .f32 := broadcastInDim S64x1x1x32 ![] bcast_S_S64x1x1x32 main_cst_2
  let main_v11 : IVec S64x1x1x32 1 := cmpf .olt main_v9 main_v10
  let main_c_3 : IVec S_ 1 := constantI S_ 1 1#1
  let main_v12 : IVec S_ 1 := (fun x v => Host.reduce IntOp.andi x v reducesTo_S64x1x1x32_S_d0_1_2_3 h_S_) main_v11 main_c_3
  let main_v13 : IVec S_ 1 := andi main_v8 main_v12
  main_v13
-- ==== Kernel.lean ====
abbrev S8x64x56x56 : Shape := ⟨4, ![8, 64, 56, 56]⟩
abbrev S64x1x1x32 : Shape := ⟨4, ![64, 1, 1, 32]⟩
abbrev S64x32 : Shape := ⟨2, ![64, 32]⟩
abbrev S_ : Shape := ⟨0, ![]⟩
abbrev S8x64x3136 : Shape := ⟨3, ![8, 64, 3136]⟩
abbrev S8x32x3136 : Shape := ⟨3, ![8, 32, 3136]⟩
abbrev S1x64x3136 : Shape := ⟨3, ![1, 64, 3136]⟩
abbrev S1x32x3136 : Shape := ⟨3, ![1, 32, 3136]⟩
abbrev S32x3136 : Shape := ⟨2, ![32, 3136]⟩
abbrev S1x1x3136 : Shape := ⟨3, ![1, 1, 3136]⟩
abbrev S3136 : Shape := ⟨1, ![3136]⟩
abbrev S1x32 : Shape := ⟨2, ![1, 32]⟩
abbrev S32 : Shape := ⟨1, ![32]⟩
abbrev S1x3136 : Shape := ⟨2, ![1, 3136]⟩
abbrev S32x1 : Shape := ⟨2, ![32, 1]⟩
abbrev S8x32x56x56 : Shape := ⟨4, ![8, 32, 56, 56]⟩

abbrev nBuf : Space → Nat
  | .hbm => 13
  | .vmem => 7
  | .smem => 0
  | _ => 0

abbrev bufTy : (tb : Table) → Fin (tcTables nBuf tb) → BufTy
  | .hbm, ⟨0, _⟩ => ⟨S8x64x56x56, .f32⟩
  | .hbm, ⟨1, _⟩ => ⟨S64x1x1x32, .f32⟩
  | .hbm, ⟨2, _⟩ => ⟨S64x1x1x32, .f32⟩
  | .hbm, ⟨3, _⟩ => ⟨S64x32, .f32⟩
  | .hbm, ⟨4, _⟩ => ⟨S64x32, .f32⟩
  | .hbm, ⟨5, _⟩ => ⟨S64x32, .f32⟩
  | .hbm, ⟨6, _⟩ => ⟨S64x32, .f32⟩
  | .hbm, ⟨7, _⟩ => ⟨S_, .f32⟩
  | .hbm, ⟨8, _⟩ => ⟨S64x32, .f32⟩
  | .hbm, ⟨9, _⟩ => ⟨S64x32, .f32⟩
  | .hbm, ⟨10, _⟩ => ⟨S8x64x3136, .f32⟩
  | .hbm, ⟨11, _⟩ => ⟨S8x32x3136, .f32⟩
  | .hbm, ⟨12, _⟩ => ⟨S8x32x56x56, .f32⟩
  | .local _ .vmem, ⟨0, _⟩ => ⟨S1x64x3136, .f32⟩
  | .local _ .vmem, ⟨1, _⟩ => ⟨S1x64x3136, .f32⟩
  | .local _ .vmem, ⟨2, _⟩ => ⟨S64x32, .f32⟩
  | .local _ .vmem, ⟨3, _⟩ => ⟨S64x32, .f32⟩
  | .local _ .vmem, ⟨4, _⟩ => ⟨S64x32, .f32⟩
  | .local _ .vmem, ⟨5, _⟩ => ⟨S1x32x3136, .f32⟩
  | .local _ .vmem, ⟨6, _⟩ => ⟨S1x32x3136, .f32⟩
  | _, _ => ⟨S8x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 3 → Nat :=
  let c0_5 : Index := 0#32
  let c0_i32_4 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v5 : BitVec 32 := Scalar.muli arg6 c1_i32_3
  let v6 : BitVec 32 := Scalar.addi c0_i32_4 v5
  let v7 : Index := Scalar.indexCast v6
  let c0_6 : Index := 0#32
  ![0, v7.toNat, 0]
def k0_off2 (k0_t1 : Fin k0_t1_loop.trips) : Fin 2 → Nat :=
  let c0_i32_4 : BitVec 32 := 0#32
  let c0_i32 : BitVec 32 := 0#32
  let c1_i32 : BitVec 32 := 1#32
  let arg6 : BitVec 32 := Scf.iv c0_i32 c1_i32 k0_t1
  let c1_i32_3 : BitVec 32 := 1#32
  let v5 : BitVec 32 := Scalar.muli arg6 c1_i32_3
  let v6 : BitVec 32 := Scalar.addi c0_i32_4 v5
  let v10 : Index := Scalar.indexCast v6
  let c0_7 : Index := 0#32
  ![v10.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x32x3136 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x1x1x32_S64x32 : S64x1x1x32.ShapeCasts S64x32
  bcast_S_S64x32 : S_.BroadcastsInDim S64x32 (![] : Fin 0 → Fin S64x32.rank)
  shapeCasts_S8x64x56x56_S8x64x3136 : S8x64x56x56.ShapeCasts S8x64x3136
  inb_S1x32x3136_S1x32x3136_0_0_0 : ∀ a, (![0, 0, 0] : Fin 3 → Nat) a + S1x32x3136.size a ≤ S1x32x3136.size a
  h_S1x32x3136 : 0 < S1x32x3136.numel
  shapeCasts_S1x32x3136_S32x3136 : S1x32x3136.ShapeCasts S32x3136
  shapeCasts_S32x3136_S1x32x3136 : S32x3136.ShapeCasts S1x32x3136
  h_S1x1x3136 : 0 < S1x1x3136.numel
  shapeCasts_S1x1x3136_S3136 : S1x1x3136.ShapeCasts S3136
  h_S1x32 : 0 < S1x32.numel
  shapeCasts_S1x32_S32 : S1x32.ShapeCasts S32
  shapeCasts_S3136_S1x3136 : S3136.ShapeCasts S1x3136
  shapeCasts_S32_S32x1 : S32.ShapeCasts S32x1
  broadcasts_S1x3136_S32x3136 : S1x3136.Broadcasts S32x3136
  broadcasts_S32x1_S32x3136 : S32x1.Broadcasts S32x3136
  shapeCasts_S8x32x3136_S8x32x56x56 : S8x32x3136.ShapeCasts S8x32x56x56
  hrank0 : 0 < grid0.rank
  k0_t1_ok : k0_t1_loop.OK
  k0_off1_inb : ∀ k0_t1 : Fin k0_t1_loop.trips, ∀ a, (k0_off1 k0_t1) a + S1x1x3136.size a ≤ S1x64x3136.size a
  k0_off2_inb : ∀ k0_t1 : Fin k0_t1_loop.trips, ∀ a, (k0_off2 k0_t1) a + S1x32.size a ≤ S64x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x3136.size a ≤ S8x64x3136.size a
  hwx0_0 : ∀ i : grid0.Coords, EltTy.bits .f32 = 32 ∨ (Rect.block (s := S8x64x3136) S1x64x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x3136.size a ≤ S8x32x3136.size a
  hwx0_4 : ∀ i : grid0.Coords, EltTy.bits .f32 = 32 ∨ (Rect.block (s := S8x32x3136) S1x32x3136.size (cc0_transform_4 i) (hinb0_4 i)).WholeWords (EltTy.packing .f32)

variable [Facts₀]

abbrev win0_0 : Pipeline.Window sig grid0 :=
  Pipeline.Window.ofSpec (Memref.whole main_v6) S1x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x32x3136.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x64x56x56 : Shape := ⟨4, ![8, 64, 56, 56]⟩
abbrev S64x1x1x32 : Shape := ⟨4, ![64, 1, 1, 32]⟩
abbrev S8x64x56x56x1 : Shape := ⟨5, ![8, 64, 56, 56, 1]⟩
abbrev S1x64x1x1x32 : Shape := ⟨5, ![1, 64, 1, 1, 32]⟩
abbrev S_ : Shape := ⟨0, ![]⟩
abbrev S8x64x56x56x32 : Shape := ⟨5, ![8, 64, 56, 56, 32]⟩
abbrev S8x56x56x32 : Shape := ⟨4, ![8, 56, 56, 32]⟩
abbrev S8x32x56x56 : Shape := ⟨4, ![8, 32, 56, 56]⟩

abbrev nBuf : Space → Nat
  | .hbm => 46
  | .vmem => 0
  | .smem => 0
  | _ => 0

abbrev bufTy : (tb : Table) → Fin (tcTables nBuf tb) → BufTy
  | .hbm, ⟨0, _⟩ => ⟨S8x64x56x56, .f32⟩
  | .hbm, ⟨1, _⟩ => ⟨S64x1x1x32, .f32⟩
  | .hbm, ⟨2, _⟩ => ⟨S64x1x1x32, .f32⟩
  | .hbm, ⟨3, _⟩ => ⟨S8x64x56x56x1, .f32⟩
  | .hbm, ⟨4, _⟩ => ⟨S1x64x1x1x32, .f32⟩
  | .hbm, ⟨5, _⟩ => ⟨S1x64x1x1x32, .f32⟩
  | .hbm, ⟨6, _⟩ => ⟨S1x64x1x1x32, .f32⟩
  | .hbm, ⟨7, _⟩ => ⟨S1x64x1x1x32, .f32⟩
  | .hbm, ⟨8, _⟩ => ⟨S_, .f32⟩
  | .hbm, ⟨9, _⟩ => ⟨S1x64x1x1x32, .f32⟩
  | .hbm, ⟨10, _⟩ => ⟨S1x64x1x1x32, .f32⟩
  | .hbm, ⟨11, _⟩ => ⟨S8x64x56x56x32, .f32⟩
  | .hbm, ⟨12, _⟩ => ⟨S8x64x56x56x32, .f32⟩
  | .hbm, ⟨13, _⟩ => ⟨S8x64x56x56x32, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x64x56x56x32, .f32⟩
  | .hbm, ⟨18, _⟩ => ⟨S8x64x56x56x32, .f32⟩
  | .hbm, ⟨19, _⟩ => ⟨S_, .f32⟩
  | .hbm, ⟨20, _⟩ => ⟨S8x64x56x56x32, .f32⟩
  | .hbm, ⟨21, _⟩ => ⟨S8x64x56x56x32, .f32⟩
  | .hbm, ⟨22, _⟩ => ⟨S_, .f32⟩
  | .hbm, ⟨23, _⟩ => ⟨S8x64x56x56x32, .f32⟩
  | .hbm, ⟨24, _⟩ => ⟨S8x64x56x56x32, .f32⟩
  | .hbm, ⟨25, _⟩ => ⟨S8x64x56x56x32, .f32⟩
  | .hbm, ⟨26, _⟩ => ⟨S8x64x56x56x32, .f32⟩
  | .hbm, ⟨27, _⟩ => ⟨S8x64x56x56x32, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x64x56x56x32, .f32⟩
  | .hbm, ⟨32, _⟩ => ⟨S8x64x56x56x32, .f32⟩
  | .hbm, ⟨33, _⟩ => ⟨S_, .f32⟩
  | .hbm, ⟨34, _⟩ => ⟨S8x64x56x56x32, .f32⟩
  | .hbm, ⟨35, _⟩ => ⟨S8x64x56x56x32, .f32⟩
  | .hbm, ⟨36, _⟩ => ⟨S_, .f32⟩
  | .hbm, ⟨37, _⟩ => ⟨S8x64x56x56x32, .f32⟩
  | .hbm, ⟨38, _⟩ => ⟨S8x64x56x56x32, .f32⟩
  | .hbm, ⟨39, _⟩ => ⟨S8x64x56x56x32, .f32⟩
  | .hbm, ⟨40, _⟩ => ⟨S8x64x56x56x32, .f32⟩
  | .hbm, ⟨41, _⟩ => ⟨S8x64x56x56x32, .f32⟩
  | .hbm, ⟨42, _⟩ => ⟨S8x64x56x56x32, .f32⟩
  | .hbm, ⟨43, _⟩ => ⟨S_, .f32⟩
  | .hbm, ⟨44, _⟩ => ⟨S8x56x56x32, .f32⟩
  | .hbm, ⟨45, _⟩ => ⟨S8x32x56x56, .f32⟩
  | _, _ => ⟨S8x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v10 : Ref sig .tc := ⟨.hbm, 21, rfl⟩
abbrev main_call1_cst : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_cst_3 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v15 : Ref sig .tc := ⟨.hbm, 35, rfl⟩
abbrev main_call3_cst : Ref sig .tc := ⟨.hbm, 36, rfl⟩
abbrev main_call3_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩

abbrev nD : Nat := 1
abbrev τ : Topo := Topo.v7x

variable {F : FTy → Type} [FloatOps F]

class Facts₀ : Prop where
  bcast_S8x64x56x56_S8x64x56x56x1_0_1_2_3 : S8x64x56x56.BroadcastsInDim S8x64x56x56x1 (![0, 1, 2, 3] : Fin 4 → Fin S8x64x56x56x1.rank)
  bcast_S64x1x1x32_S1x64x1x1x32_1_2_3_4 : S64x1x1x32.BroadcastsInDim S1x64x1x1x32 (![1, 2, 3, 4] : Fin 4 → Fin S1x64x1x1x32.rank)
  bcast_S_S1x64x1x1x32 : S_.BroadcastsInDim S1x64x1x1x32 (![] : Fin 0 → Fin S1x64x1x1x32.rank)
  bcast_S8x64x56x56x1_S8x64x56x56x32_0_1_2_3_4 : S8x64x56x56x1.BroadcastsInDim S8x64x56x56x32 (![0, 1, 2, 3, 4] : Fin 5 → Fin S8x64x56x56x32.rank)
  bcast_S1x64x1x1x32_S8x64x56x56x32_0_1_2_3_4 : S1x64x1x1x32.BroadcastsInDim S8x64x56x56x32 (![0, 1, 2, 3, 4] : Fin 5 → Fin S8x64x56x56x32.rank)
  bcast_S_S8x64x56x56x32 : S_.BroadcastsInDim S8x64x56x56x32 (![] : Fin 0 → Fin S8x64x56x56x32.rank)
  reducesTo_S8x64x56x56x32_S8x56x56x32_d1 : S8x64x56x56x32.ReducesTo [1] S8x56x56x32
  h_S_ : 0 < S_.numel
  transposes_S8x56x56x32_S8x32x56x56_0_3_1_2 : S8x56x56x32.Transposes [0, 3, 1, 2] S8x32x56x56

variable [Facts₀]

class Facts : Prop extends Facts₀ where

variable [Facts]
-- ==== Proof.Spec.lean ====
/-
  The function both programs compute, and the one law that joins their two spellings of it.

  For an input `x[n, c, h, w]` and, per input channel `c` and output channel `o`, a left bound `lb[c, o]` and a right
  bound `rb[c, o]`, the result at `(n, o, h, w)` is the sum over the sixty-four input channels `c` of
      ( clip₀₁(x − lb) · clip₀₁(rb − x) · 4 / ((rb − lb) · (rb − lb)) )²
  where `clip₀₁ v = min (max v 0) 1` clips to the unit interval.  One program clips to `[-1, 1]` first and then cuts
  the negatives off; in any linear order with `-1 ≤ 0 ≤ 1` that is the same as clipping to `[0, 1]`, infinities
  included (`relu_clip`).  Everything is on the extended reals.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The three float words the clips are spelt with -/

/-- The word of `1.0` denotes one. -/
theorem word_one : Ideal.ofBits .f32 0x3F800000#32 = 1 := by
  simp [Ideal.ofBits, Ideal.ieee, -EReal.coe_mul]; norm_num

/-- The word of `-1.0` denotes minus one. -/
theorem word_negOne : Ideal.ofBits .f32 0xBF800000#32 = -1 := by
  simp [Ideal.ofBits, Ideal.ieee, -EReal.coe_mul]; norm_num

/-! ## Clipping -/

/-- Clip to the unit interval. -/
def clip01 (v : EReal) : EReal := min (max v 0) 1

/-- Clipping to `[-1, 1]` and then cutting the negatives off is clipping to `[0, 1]`: for `v ≤ 0` both sides are
    `0`, for `0 ≤ v` both are `min v 1`. -/
theorem relu_clip (v : EReal) : max (min 1 (max (-1) v)) 0 = clip01 v := by
  have h01 : (0 : EReal) ≤ 1 := zero_le_one
  have hm : (-1 : EReal) ≤ 0 := by
    have h := EReal.neg_le_neg_iff.mpr h01
    rwa [neg_zero] at h
  unfold clip01
  rcases le_total v 0 with h | h
  · rw [max_eq_right h, min_eq_left h01]
    exact max_eq_right ((min_le_right _ _).trans (max_le hm h))
  · rw [max_eq_left h, max_eq_right (hm.trans h), max_eq_left (le_min h01 h), min_comm]

/-! ## One channel's contribution, and the result -/

/-- The normalising constant of a channel pair: four over the squared width of the interval. -/
def normc (lb rb : EReal) : EReal := Ideal.div (Ideal.ofBits .f32 0x40800000#32) ((rb - lb) * (rb - lb))

/-- One input channel's contribution at one position: the two clipped ramps times the constant, squared. -/
def basis (x lb rb nc : EReal) : EReal :=
  (clip01 (x - lb) * clip01 (rb - x) * nc) * (clip01 (x - lb) * clip01 (rb - x) * nc)

/-- The result at batch entry `n`, output channel `o`, position `(h, w)`: the sum over the input channels. -/
def resultAt (x : (⟨4, ![8, 64, 56, 56]⟩ : Shape).Idx → EReal) (lb rb : (⟨4, ![64, 1, 1, 32]⟩ : Shape).Idx → EReal)
    (n : Fin 8) (o : Fin 32) (h w : Fin 56) : EReal :=
  ∑ j : Fin 64, basis (x (ix4 n j h w)) (lb (ix4 j (0 : Fin 1) (0 : Fin 1) o)) (rb (ix4 j (0 : Fin 1) (0 : Fin 1) o))
    (normc (lb (ix4 j (0 : Fin 1) (0 : Fin 1) o)) (rb (ix4 j (0 : Fin 1) (0 : Fin 1) o)))

/-- The whole result array. -/
def result (x : (⟨4, ![8, 64, 56, 56]⟩ : Shape).Idx → EReal) (lb rb : (⟨4, ![64, 1, 1, 32]⟩ : Shape).Idx → EReal) :
    (⟨4, ![8, 32, 56, 56]⟩ : Shape).Idx → EReal :=
  fun i => resultAt x lb rb (i 0) (i 1) (i 2) (i 3)

theorem result_apply (x : (⟨4, ![8, 64, 56, 56]⟩ : Shape).Idx → EReal) (lb rb : (⟨4, ![64, 1, 1, 32]⟩ : Shape).Idx → EReal)
    (n : Fin 8) (o : Fin 32) (h w : Fin 56) : result x lb rb (ix4 n o h w) = resultAt x lb rb n o h w := rfl

end Cert.Spec

end
-- ==== Proof.RefIsSpec.lean ====
/-
  The reference computes the specified result.

  Read index by index, the reference's stages are: the input and the two bound arrays broadcast to a common
  `[8, 64, 56, 56, 32]` shape; the two ramps `x − lb` and `rb − x`, each clipped to `[-1, 1]` and then cut off below at
  `0`; their product with the constant `4 / ((rb − lb) · (rb − lb))`, squared; the sum over the channel axis from `0`;
  and a transpose that puts the output channel second.  At result index `(n, o, h, w)` and channel `j` every broadcast
  reads `x` at `(n, j, h, w)` and the bounds at `(j, 0, 0, o)`; the clip-then-cut is the clip to `[0, 1]`.
-/
import proofs.«155447_j58660663328909_2_alg».proof.Proof.Gen.ReferenceIdeal.Read
import proofs.«155447_j58660663328909_2_alg».proof.Proof.Spec

noncomputable section

namespace Cert.ReferenceIdeal.IsSpec

open Cert.ReferenceIdeal Cert.ReferenceIdeal.Read
open Idealize.ShloMosaic Idealize.ShloMosaic.ValueIdx

theorem ref_is_result (x0 : (⟨S8x64x56x56, .f32⟩ : BufTy).Contents (Elt Ideal)) (x1 x2 : (⟨S64x1x1x32, .f32⟩ : BufTy).Contents (Elt Ideal)) :
    val_main_v22 (F := Ideal) x0 x1 x2 = Spec.result x0 x1 x2 := by
  funext i
  obtain ⟨n, o, h, w, rfl⟩ : ∃ (n : Fin 8) (o : Fin 32) (h w : Fin 56), i = ix4 n o h w := ⟨i 0, i 1, i 2, i 3, eq_ix4 i⟩
  rw [Spec.result_apply, val_main_v22_apply, val_main_v21_apply, val_main_cst_4_apply]
  unfold Spec.resultAt
  rw [Ideal.ofBits_def, Ideal.ofBits_zero_f32, zero_add]
  refine Finset.sum_congr rfl fun j _ => ?_
  have ex7 : idx_main_v0 (idx_main_v7 (idx_main_v21 (idx_main_v22 (ix4 n o h w)) j)) = ix4 n j h w :=
    funext fun a => Fin.ext (by match a with | ⟨0, _⟩ => rfl | ⟨1, _⟩ => rfl | ⟨2, _⟩ => rfl | ⟨3, _⟩ => rfl)
  have ex13 : idx_main_v0 (idx_main_v13 (idx_main_v21 (idx_main_v22 (ix4 n o h w)) j)) = ix4 n j h w :=
    funext fun a => Fin.ext (by match a with | ⟨0, _⟩ => rfl | ⟨1, _⟩ => rfl | ⟨2, _⟩ => rfl | ⟨3, _⟩ => rfl)
  have el8 : idx_main_v1 (idx_main_v8 (idx_main_v21 (idx_main_v22 (ix4 n o h w)) j)) = ix4 j (0 : Fin 1) (0 : Fin 1) o :=
    funext fun a => Fin.ext (by match a with | ⟨0, _⟩ => rfl | ⟨1, _⟩ => rfl | ⟨2, _⟩ => rfl | ⟨3, _⟩ => rfl)
  have er12 : idx_main_v2 (idx_main_v12 (idx_main_v21 (idx_main_v22 (ix4 n o h w)) j)) = ix4 j (0 : Fin 1) (0 : Fin 1) o :=
    funext fun a => Fin.ext (by match a with | ⟨0, _⟩ => rfl | ⟨1, _⟩ => rfl | ⟨2, _⟩ => rfl | ⟨3, _⟩ => rfl)
  have el18 : idx_main_v1 (idx_main_v18 (idx_main_v21 (idx_main_v22 (ix4 n o h w)) j)) = ix4 j (0 : Fin 1) (0 : Fin 1) o :=
    funext fun a => Fin.ext (by match a with | ⟨0, _⟩ => rfl | ⟨1, _⟩ => rfl | ⟨2, _⟩ => rfl | ⟨3, _⟩ => rfl)
  have er18 : idx_main_v2 (idx_main_v18 (idx_main_v21 (idx_main_v22 (ix4 n o h w)) j)) = ix4 j (0 : Fin 1) (0 : Fin 1) o :=
    funext fun a => Fin.ext (by match a with | ⟨0, _⟩ => rfl | ⟨1, _⟩ => rfl | ⟨2, _⟩ => rfl | ⟨3, _⟩ => rfl)
  simp only [val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, val_main_cst_2_apply, val_main_cst_3_apply, val_main_call0_v0_apply, val_main_call0_v1_apply,
    val_main_call0_v2_apply, val_main_call0_v3_apply, val_main_call0_v4_apply, val_main_call1_cst_apply,
    val_main_call1_v0_apply, val_main_call2_v0_apply, val_main_call2_v1_apply, val_main_call2_v2_apply,
    val_main_call2_v3_apply, val_main_call2_v4_apply, val_main_call3_cst_apply, val_main_call3_v0_apply,
    Ideal.mulf_def, Ideal.subf_def, Ideal.maximumf_def, Ideal.minimumf_def, Ideal.hostDivf_def, Ideal.ofBits_def,
    ex7, ex13, el8, er12, el18, er18]
  rw [Spec.word_one, Spec.word_negOne, Ideal.ofBits_zero_f32, Spec.relu_clip, Spec.relu_clip]
  rfl

end Cert.ReferenceIdeal.IsSpec

end
-- ==== Proof.LoopFold.lean ====
/-
  The body's counted loop as a recursion on the trip.

  The body first fills its output block with zeros, then runs sixty-four trips; trip `k` loads row `k` of the
  channel stack and row `k` of each of the three parameter tables, loads the block back, and stores the block
  again with that channel's contribution added.  Every store goes through the whole block, so after each store
  the block holds exactly that store's value: the block after `k` trips is `after k`, defined by
  `after 0 = the zero fill` and `after (k+1) = the trip's value at rows k and at after k`.  Nothing here depends
  on what the float operations mean.
-/
import proofs.«155447_j58660663328909_2_alg».proof.Proof.Gen.KernelIdeal.Frame
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.ShloMosaic.Tactic
open Idealize.SL Idealize.SL.Sem

variable {F : FTy → Type} [FloatOps F]

/-- The block's origin, however its three zeros are spelt. -/
theorem origin3 : (![0, 0, 0] : Fin 3 → Nat) = fun _ => 0 := funext fun a => by fin_cases a <;> rfl

/-- The loop makes sixty-four trips. -/
theorem trips_eq : k0_t1_loop.trips = 64 := by decide +kernel

/-- Row `k` of the channel stack, as the trip loads it. -/
def chanRow (x0 : Vec F S1x64x3136 .f32) (k : Fin k0_t1_loop.trips) : Vec F S1x1x3136 .f32 :=
  View.ld x0 (Rect.unit (s := S1x64x3136) (k0_off1 k) S1x1x3136.size (k0_off1_inb k))

/-- Row `k` of a parameter table, as the trip loads it. -/
def tabRow (x : Vec F S64x32 .f32) (k : Fin k0_t1_loop.trips) : Vec F S1x32 .f32 :=
  View.ld x (Rect.unit (s := S64x32) (k0_off2 k) S1x32.size (k0_off2_inb k))

/-- The output block after the zero fill and the first `k` trips. -/
def after (x0 : Vec F S1x64x3136 .f32) (x1 x2 x3 : Vec F S64x32 .f32) : ℕ → Vec F S1x32x3136 .f32
  | 0 => k0_pay1
  | k + 1 =>
    if h : k < k0_t1_loop.trips then
      k0_pay2 (chanRow x0 ⟨k, h⟩) (tabRow x1 ⟨k, h⟩) (tabRow x2 ⟨k, h⟩) (tabRow x3 ⟨k, h⟩) (after x0 x1 x2 x3 k)
    else after x0 x1 x2 x3 k

theorem after_succ (x0 : Vec F S1x64x3136 .f32) (x1 x2 x3 : Vec F S64x32 .f32) (k : Fin k0_t1_loop.trips) :
    after x0 x1 x2 x3 (k.val + 1)
      = k0_pay2 (chanRow x0 k) (tabRow x1 k) (tabRow x2 k) (tabRow x3 k) (after x0 x1 x2 x3 k.val) := by
  rw [after]; exact dif_pos k.isLt

/-- The zero fill's store. -/
abbrev fill : View.Piece (Elt F) S1x32x3136 .f32 :=
  ⟨Rect.unit (s := S1x32x3136) ![0, 0, 0] S1x32x3136.size inb_S1x32x3136_S1x32x3136_0_0_0, k0_pay1⟩

/-- ONE TRIP stores one value through the whole block: the trip's arithmetic at the four rows it loads and at
    what it finds in the block. -/
theorem trip_store (𝒱 : Variants) (c : Dev nD) (bd : Option 𝒱.V) (i : grid0.Coords) (arg1 : Memref sig .tc .vmem S1x64x3136 .f32) (harg1 : arg1.IsWhole) (arg2 : Memref sig .tc .vmem S64x32 .f32) (harg2 : arg2.IsWhole) (arg3 : Memref sig .tc .vmem S64x32 .f32) (harg3 : arg3.IsWhole) (arg4 : Memref sig .tc .vmem S64x32 .f32) (harg4 : arg4.IsWhole) (arg5 : Memref sig .tc .vmem S1x32x3136 .f32) (harg5 : arg5.IsWhole)
    (X_arg1 : BufTy.Contents (Elt F) arg1.view.ty) (X_arg2 : BufTy.Contents (Elt F) arg2.view.ty) (X_arg3 : BufTy.Contents (Elt F) arg3.view.ty) (X_arg4 : BufTy.Contents (Elt F) arg4.view.ty)
    (k : Fin k0_t1_loop.trips) (f_arg5 : BufTy.Contents (Elt F) arg5.view.ty) :
    tripL_k0_t1 (F := F) 𝒱 c bd i arg1 harg1 arg2 harg2 arg3 harg3 arg4 harg4 arg5 harg5 X_arg1 X_arg2 X_arg3 X_arg4 k f_arg5
      = [⟨Rect.unit (s := S1x32x3136) ![0, 0, 0] S1x32x3136.size inb_S1x32x3136_S1x32x3136_0_0_0,
          k0_pay2 (chanRow (arg1.view.read (Elt F) X_arg1) k) (tabRow (arg2.view.read (Elt F) X_arg2) k)
            (tabRow (arg3.view.read (Elt F) X_arg3) k) (tabRow (arg4.view.read (Elt F) X_arg4) k)
            (arg5.view.readAt (Elt F) (Rect.unit (s := S1x32x3136) ![0, 0, 0] S1x32x3136.size inb_S1x32x3136_S1x32x3136_0_0_0).toLoadRect f_arg5)⟩] := by
  unfold tripL_k0_t1 trip_k0_t1
  dsimp only
  sl_unfold_words
  rfl

/-- THE LOOP: the stores of the first `k` trips over the zero fill leave `after k`. -/
theorem stores_leave (c : Dev nD) (i : grid0.Coords) (arg1 : Memref sig .tc .vmem S1x64x3136 .f32) (harg1 : arg1.IsWhole) (arg2 : Memref sig .tc .vmem S64x32 .f32) (harg2 : arg2.IsWhole) (arg3 : Memref sig .tc .vmem S64x32 .f32) (harg3 : arg3.IsWhole) (arg4 : Memref sig .tc .vmem S64x32 .f32) (harg4 : arg4.IsWhole) (arg5 : Memref sig .tc .vmem S1x32x3136 .f32) (harg5 : arg5.IsWhole)
    (x0 : Vec F S1x64x3136 .f32) (x1 x2 x3 : Vec F S64x32 .f32) :
    ∀ k : ℕ, k ≤ k0_t1_loop.trips →
      View.canon (pb_k0_t1 (F := F) Variants.none c none i arg1 harg1 arg2 harg2 arg3 harg3 arg4 harg4 arg5 harg5 (harg1.unread x0) (harg2.unread x1) (harg3.unread x2) (harg4.unread x3)
          (arg5.view.writes (Elt F) arg5.view.junk [fill]) k ++ [fill])
        = after x0 x1 x2 x3 k
  | 0, _ => by
    show View.canon [fill] = k0_pay1
    exact View.canon_unit_zero origin3 _ _
  | k + 1, hk => by
    have ih := stores_leave c i arg1 harg1 arg2 harg2 arg3 harg3 arg4 harg4 arg5 harg5 x0 x1 x2 x3 k (Nat.le_of_succ_le hk)
    have hk' : k < k0_t1_loop.trips := hk
    rw [pb_k0_t1_succ Variants.none c none i arg1 harg1 arg2 harg2 arg3 harg3 arg4 harg4 arg5 harg5 _ _ _ _ _ ⟨k, hk'⟩, trip_store, List.append_assoc, List.singleton_append,
      View.canon_cons_unit_zero origin3, after_succ x0 x1 x2 x3 ⟨k, hk'⟩,
      harg1.read_unread, harg2.read_unread, harg3.read_unread, harg4.read_unread,
      ← View.writes_append, View.readAt_writes_junk_eq_canon, ih]
    exact congrArg (k0_pay2 _ _ _ _)
      (View.ld_unit_zero origin3 inb_S1x32x3136_S1x32x3136_0_0_0 (after x0 x1 x2 x3 k))

/-- THE BODY'S RESULT: on any staging memrefs, at any point, the output block ends at `after 64` of the input blocks. -/
theorem out_eq (c : Dev nD) (i : grid0.Coords) (arg1 : Memref sig .tc .vmem S1x64x3136 .f32) (harg1 : arg1.IsWhole) (arg2 : Memref sig .tc .vmem S64x32 .f32) (harg2 : arg2.IsWhole) (arg3 : Memref sig .tc .vmem S64x32 .f32) (harg3 : arg3.IsWhole) (arg4 : Memref sig .tc .vmem S64x32 .f32) (harg4 : arg4.IsWhole) (arg5 : Memref sig .tc .vmem S1x32x3136 .f32) (harg5 : arg5.IsWhole)
    (x0 : Vec F S1x64x3136 .f32) (x1 x2 x3 : Vec F S64x32 .f32) :
    out0_A_4 c i arg1 harg1 arg2 harg2 arg3 harg3 arg4 harg4 arg5 harg5 x0 x1 x2 x3 = after x0 x1 x2 x3 64 := by
  unfold out0_A_4
  rw [View.read_writes_junk_eq_canon]
  unfold kernelRun0_A
  dsimp only
  sl_unfold_words
  have h := stores_leave c i arg1 harg1 arg2 harg2 arg3 harg3 arg4 harg4 arg5 harg5 x0 x1 x2 x3 k0_t1_loop.trips (Nat.le_refl _)
  rw [trips_eq] at h
  exact h

end Cert.KernelIdeal.Fold

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  The body's arithmetic read at one entry of the output block.

  The zero fill puts `0` at every entry.  A trip takes one row `xr` of the channel stack (3136 positions) and one row
  each of the left bounds, the right bounds and the normalising constants (32 output channels); it repeats the position
  row down the 32 channels and each channel column along the 3136 positions, and adds to the block's entry
  `(o, p)` the squared product `clip₀₁(xr p − lb o) · clip₀₁(rb o − xr p) · nc o`.  The layout steps are read at an index
  by the library's lemmas for a leading unit axis and a repeated row, and by the two lemmas for a column.
-/
import proofs.«155447_j58660663328909_2_alg».proof.Proof.Gen.KernelIdeal.Skeleton
import proofs.«155447_j58660663328909_2_alg».proof.Proof.Spec
import proofs.«155447_j58660663328909_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx

/-- A `[1, 1, n]` row viewed as an `n`-vector, then as a one-row matrix, then repeated down `a` rows, reads at
    `(o, p)` the row's entry `p`. -/
theorem rowOver {α : Type} (v : (⟨3, ![1, 1, 3136]⟩ : Shape).Idx → α)
    (h1 : (⟨3, ![1, 1, 3136]⟩ : Shape).ShapeCasts ⟨1, ![3136]⟩) (h2 : (⟨1, ![3136]⟩ : Shape).ShapeCasts ⟨2, ![1, 3136]⟩)
    (h3 : (⟨2, ![1, 3136]⟩ : Shape).Broadcasts ⟨2, ![32, 3136]⟩) (o : Fin 32) (p : Fin 3136) :
    broadcastTo ⟨2, ![32, 3136]⟩ (shapeCast ⟨2, ![1, 3136]⟩ (shapeCast ⟨1, ![3136]⟩ v h1) h2) h3 (ix2 o p)
      = v (ix3 (0 : Fin 1) (0 : Fin 1) p) := by
  rw [broadcastTo_1b_ab_apply, shapeCast_a_1a_apply]
  exact shapeCast_apply v h1 _ _ (by
    rw [Shape.rowMajor_val_three, Shape.rowMajor_val_one]
    show (0 * 1 + 0) * 3136 + p.val = p.val
    omega)

/-- A `[1, a]` row viewed as an `a`-vector, then as a column, then repeated along `b` columns, reads at `(o, p)` the
    row's entry `o`. -/
theorem colOver {α : Type} (v : (⟨2, ![1, 32]⟩ : Shape).Idx → α)
    (h1 : (⟨2, ![1, 32]⟩ : Shape).ShapeCasts ⟨1, ![32]⟩) (h2 : (⟨1, ![32]⟩ : Shape).ShapeCasts ⟨2, ![32, 1]⟩)
    (h3 : (⟨2, ![32, 1]⟩ : Shape).Broadcasts ⟨2, ![32, 3136]⟩) (o : Fin 32) (p : Fin 3136) :
    broadcastTo ⟨2, ![32, 3136]⟩ (shapeCast ⟨2, ![32, 1]⟩ (shapeCast ⟨1, ![32]⟩ v h1) h2) h3 (ix2 o p)
      = v (ix2 (0 : Fin 1) o) := by
  rw [Cert.LibColumn.broadcastTo_a1_ab_apply, Cert.LibColumn.shapeCast_a_a1_apply, shapeCast_1a_a_apply]

/-- The zero fill holds `0` at every entry. -/
theorem fill_apply (o : Fin 32) (p : Fin 3136) : k0_pay1 (F := Ideal) (ix3 (0 : Fin 1) o p) = 0 := by
  unfold k0_pay1
  refine (shapeCast_ab_1ab_apply _ _ _ _ _).trans ?_
  exact Ideal.ofBits_zero_f32

/-- One trip adds, at entry `(o, p)`, the channel's contribution at position `p` and output channel `o`. -/
theorem trip_apply (xr : FVec Ideal S1x1x3136 .f32) (lbr rbr ncr : FVec Ideal S1x32 .f32) (blk : FVec Ideal S1x32x3136 .f32)
    (o : Fin 32) (p : Fin 3136) :
    k0_pay2 (F := Ideal) xr lbr rbr ncr blk (ix3 (0 : Fin 1) o p)
      = blk (ix3 (0 : Fin 1) o p)
        + Spec.basis (xr (ix3 (0 : Fin 1) (0 : Fin 1) p)) (lbr (ix2 (0 : Fin 1) o)) (rbr (ix2 (0 : Fin 1) o)) (ncr (ix2 (0 : Fin 1) o)) := by
  have hs : ∀ b : BitVec 32, Scalar.ofBits (F := Ideal) .f32 b = Ideal.ofBits .f32 b := fun _ => rfl
  unfold k0_pay2
  refine (shapeCast_ab_1ab_apply _ _ _ _ _).trans ?_
  simp only [addf_apply, mulf_apply, subf_apply, maximumf_apply, minimumf_apply, broadcast_apply]
  rw [shapeCast_1ab_ab_apply, rowOver, colOver, colOver, colOver, hs, hs, Ideal.ofBits_zero_f32, Spec.word_one]
  rfl

end Cert.KernelIdeal.Pay

end
-- ==== Proof.ChanSum.lean ====
/-
  The output block after the loop, entry by entry, as a sum over the channels.

  Trip `k` loads row `k` of the channel stack and row `k` of each table (the loop's offsets are `(0, k, 0)` and
  `(k, 0)`), and adds that channel's contribution to every entry of the block, which starts at zero.  So after `k`
  trips entry `(o, p)` holds the sum of the contributions of channels `0 … k − 1`, and after all sixty-four the sum
  over every channel.  Only that the extended reals are an additive monoid is used.
-/
import proofs.«155447_j58660663328909_2_alg».proof.Proof.LoopFold
import proofs.«155447_j58660663328909_2_alg».proof.Proof.Payload

noncomputable section

namespace Cert.KernelIdeal.Sum

open Cert.KernelIdeal Cert.KernelIdeal.Gen Cert.KernelIdeal.Fold Cert.KernelIdeal.Pay
open Idealize.ShloMosaic Idealize.ShloMosaic.ValueIdx

/-- A trip's number as a channel. -/
def chan (k : Fin k0_t1_loop.trips) : Fin 64 := ⟨k.val, Nat.lt_of_lt_of_le k.isLt (Nat.le_of_eq trips_eq)⟩

/-- The row of the channel stack trip `k` loads is channel `k`'s. -/
theorem chanRow_apply (x0 : FVec Ideal S1x64x3136 .f32) (k : Fin k0_t1_loop.trips) (p : Fin 3136) :
    chanRow (F := Ideal) x0 k (ix3 (0 : Fin 1) (0 : Fin 1) p) = x0 (ix3 (0 : Fin 1) (chan k) p) := by
  have e := k0_off1_eq k
  show x0 ((Rect.unit (s := S1x64x3136) (k0_off1 k) S1x1x3136.size (k0_off1_inb k)).idx (ix3 (0 : Fin 1) (0 : Fin 1) p)) = _
  refine congrArg x0 (funext fun a => Fin.ext ?_)
  match a with
  | ⟨0, _⟩ => show k0_off1 k 0 + 1 * 0 = 0; rw [e]; rfl
  | ⟨1, _⟩ => show k0_off1 k 1 + 1 * 0 = k.val; rw [e]; rfl
  | ⟨2, _⟩ => show k0_off1 k 2 + 1 * p.val = p.val; rw [e]; show 0 + 1 * p.val = p.val; omega

/-- The row of a table trip `k` loads is channel `k`'s. -/
theorem tabRow_apply (x : FVec Ideal S64x32 .f32) (k : Fin k0_t1_loop.trips) (o : Fin 32) :
    tabRow (F := Ideal) x k (ix2 (0 : Fin 1) o) = x (ix2 (chan k) o) := by
  have e := k0_off2_eq k
  show x ((Rect.unit (s := S64x32) (k0_off2 k) S1x32.size (k0_off2_inb k)).idx (ix2 (0 : Fin 1) o)) = _
  refine congrArg x (funext fun a => Fin.ext ?_)
  match a with
  | ⟨0, _⟩ => show k0_off2 k 0 + 1 * 0 = k.val; rw [e]; rfl
  | ⟨1, _⟩ => show k0_off2 k 1 + 1 * o.val = o.val; rw [e]; show 0 + 1 * o.val = o.val; omega

/-- Channel `j`'s contribution at output channel `o` and position `p`, from the four blocks the body is given. -/
def term (x0 : FVec Ideal S1x64x3136 .f32) (x1 x2 x3 : FVec Ideal S64x32 .f32) (o : Fin 32) (p : Fin 3136) (j : Fin 64) : EReal :=
  Spec.basis (x0 (ix3 (0 : Fin 1) j p)) (x1 (ix2 j o)) (x2 (ix2 j o)) (x3 (ix2 j o))

/-- The same, for a channel given as a natural number (zero past the last channel). -/
def termN (x0 : FVec Ideal S1x64x3136 .f32) (x1 x2 x3 : FVec Ideal S64x32 .f32) (o : Fin 32) (p : Fin 3136) (j : ℕ) : EReal :=
  if h : j < 64 then term x0 x1 x2 x3 o p ⟨j, h⟩ else 0

/-- After `k` trips an entry holds the contributions of the channels below `k`. -/
theorem after_apply (x0 : FVec Ideal S1x64x3136 .f32) (x1 x2 x3 : FVec Ideal S64x32 .f32) (o : Fin 32) (p : Fin 3136) :
    ∀ k : ℕ, k ≤ k0_t1_loop.trips →
      after (F := Ideal) x0 x1 x2 x3 k (ix3 (0 : Fin 1) o p) = ∑ j ∈ Finset.range k, termN x0 x1 x2 x3 o p j
  | 0, _ => by
    rw [Finset.sum_range_zero]
    exact fill_apply o p
  | k + 1, hk => by
    have hk' : k < k0_t1_loop.trips := hk
    have h64 : k < 64 := Nat.lt_of_lt_of_le hk' (Nat.le_of_eq trips_eq)
    have hs : after (F := Ideal) x0 x1 x2 x3 (k + 1)
        = k0_pay2 (F := Ideal) (chanRow x0 ⟨k, hk'⟩) (tabRow x1 ⟨k, hk'⟩) (tabRow x2 ⟨k, hk'⟩) (tabRow x3 ⟨k, hk'⟩)
            (after (F := Ideal) x0 x1 x2 x3 k) := after_succ (F := Ideal) x0 x1 x2 x3 ⟨k, hk'⟩
    rw [hs, Finset.sum_range_succ, trip_apply,
      after_apply x0 x1 x2 x3 o p k (Nat.le_of_lt hk'), chanRow_apply, tabRow_apply, tabRow_apply, tabRow_apply]
    unfold termN
    rw [dif_pos h64]
    rfl

/-- THE BLOCK AFTER THE LOOP: the sum over all sixty-four channels. -/
theorem after_all (x0 : FVec Ideal S1x64x3136 .f32) (x1 x2 x3 : FVec Ideal S64x32 .f32) (o : Fin 32) (p : Fin 3136) :
    after (F := Ideal) x0 x1 x2 x3 64 (ix3 (0 : Fin 1) o p) = ∑ j : Fin 64, term x0 x1 x2 x3 o p j := by
  rw [after_apply x0 x1 x2 x3 o p 64 (Nat.le_of_eq trips_eq.symm), ← Fin.sum_univ_eq_sum_range]
  refine Finset.sum_congr rfl fun j _ => ?_
  unfold termN
  rw [dif_pos j.isLt]

end Cert.KernelIdeal.Sum

end
-- ==== Proof.Region.lean ====
/-
  From one grid point's block to the whole array the region writes.

  The grid has one point per batch entry `n`.  At point `n` the body is given block `n` of the flattened input (all
  channels, all positions of that batch entry) and the three tables whole, and its output block is block `n` of the
  result: so the block the point writes back is the restriction to batch entry `n` of ONE function of the four staged
  arrays — at `(n, o, p)`, the sum over the channels `j` of the contribution of `(input (n, j, p), tables (j, o))`.
  The eight blocks cover the array, so the array ends holding that function.
-/
import proofs.«155447_j58660663328909_2_alg».proof.Proof.ChanSum

set_option maxRecDepth 16384

noncomputable section

namespace Cert.KernelIdeal.Region

open Cert.KernelIdeal Cert.KernelIdeal.Gen Cert.KernelIdeal.Fold Cert.KernelIdeal.Sum
open Idealize.ShloMosaic Idealize.ShloMosaic.TcCoe Idealize.ShloMosaic.ValueIdx
open Idealize.SL Idealize.SL.Sem
open Idealize.ShloMosaic.Pipeline (Dat Cfg Window)

/-- The region's result at batch entry `n`, output channel `o`, flattened position `p`. -/
def regionAt (a6 : FVec Ideal S8x64x3136 .f32) (a0 a1 a5 : FVec Ideal S64x32 .f32) (n : Fin 8) (o : Fin 32) (p : Fin 3136) : EReal :=
  ∑ j : Fin 64, Spec.basis (a6 (ix3 n j p)) (a0 (ix2 j o)) (a1 (ix2 j o)) (a5 (ix2 j o))

/-- The region's whole result array as a function of the four arrays it stages. -/
def region (a6 : FVec Ideal S8x64x3136 .f32) (a0 a1 a5 : FVec Ideal S64x32 .f32) : S8x32x3136.Idx → EReal :=
  fun i => regionAt a6 a0 a1 a5 (i 0) (i 1) (i 2)

/-- One point's block, over plain variables: if the input block is batch entry `n` of the input array and the table
    blocks are the tables, the block after the loop is batch entry `n` of the region's function. -/
theorem block_eq (x0 : FVec Ideal S1x64x3136 .f32) (x1 x2 x3 : FVec Ideal S64x32 .f32)
    (a6 : FVec Ideal S8x64x3136 .f32) (a0 a1 a5 : FVec Ideal S64x32 .f32) (n : Fin 8)
    (h0 : ∀ (j : Fin 64) (p : Fin 3136), x0 (ix3 (0 : Fin 1) j p) = a6 (ix3 n j p))
    (h1 : ∀ (j : Fin 64) (o : Fin 32), x1 (ix2 j o) = a0 (ix2 j o))
    (h2 : ∀ (j : Fin 64) (o : Fin 32), x2 (ix2 j o) = a1 (ix2 j o))
    (h3 : ∀ (j : Fin 64) (o : Fin 32), x3 (ix2 j o) = a5 (ix2 j o))
    (y : S1x32x3136.Idx) (i : S8x32x3136.Idx)
    (hi0 : (i 0).val = n.val) (hi1 : (i 1).val = (y 1).val) (hi2 : (i 2).val = (y 2).val) :
    after (F := Ideal) x0 x1 x2 x3 64 y = region a6 a0 a1 a5 i := by
  obtain ⟨u, o, p, rfl⟩ : ∃ (u : Fin 1) (o : Fin 32) (p : Fin 3136), y = ix3 u o p := ⟨y 0, y 1, y 2, eq_ix3 y⟩
  obtain ⟨n', o', p', rfl⟩ : ∃ (n' : Fin 8) (o' : Fin 32) (p' : Fin 3136), i = ix3 n' o' p' := ⟨i 0, i 1, i 2, eq_ix3 i⟩
  obtain rfl : n' = n := Fin.ext hi0
  obtain rfl : o' = o := Fin.ext hi1
  obtain rfl : p' = p := Fin.ext hi2
  obtain rfl : u = 0 := Subsingleton.elim _ _
  show _ = regionAt a6 a0 a1 a5 n' o' p'
  rw [after_all]
  unfold regionAt term
  refine Finset.sum_congr rfl fun j _ => ?_
  rw [h0, h1, h2, h3]

variable (m : (ℓ : Loc nD τ sig) → Buf (Elt Ideal) ℓ)

/-- The printed index maps, decided over the eight grid points: the input's and the output's block index is the point
    on the batch axis and zero elsewhere; the tables' block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is block `t` of the region's function of the arrays as the region finds them. -/
theorem flushed_eq (c : Dev nD) (t : Fin cfg0.N) :
    (dats (F := Ideal) m 0 c).flushed 4 t
      = ((cfg0.win 4).blk t).view.read (Elt Ideal) (region (V m c main_v6) (V m c main_v0) (V m c main_v1) (V m c main_v5)) := by
  show (cfg0.win 4).cut (grid0.coords t) ((dats m 0 c).after 4 t) = _
  rw [after0_4]
  unfold outsAt0
  rw [out_eq]
  obtain ⟨e00, e01, e02, e10, e11, e20, e21, e30, e31, e40, e41, e42⟩ := idx_facts t
  have ht8 : t.val < 8 := Nat.lt_of_lt_of_le t.isLt (Nat.le_of_eq (N_0 : cfg0.N = 8))
  funext y
  show after (F := Ideal) (iblk m c 0 t) (iblk m c 1 t) (iblk m c 2 t) (iblk m c 3 t) 64 y
    = region (V m c main_v6) (V m c main_v0) (V m c main_v1) (V m c main_v5) (((cfg0.win 4).blk t).view.emb y)
  refine block_eq (iblk m c 0 t) (iblk m c 1 t) (iblk m c 2 t) (iblk m c 3 t)
    (V m c main_v6) (V m c main_v0) (V m c main_v1) (V m c main_v5) ⟨t.val, ht8⟩ ?_ ?_ ?_ ?_ y (((cfg0.win 4).blk t).view.emb y) ?_ ?_ ?_
  · intro j p
    show V m c main_v6 (((cfg0.win 0).blk t).view.emb (ix3 (0 : Fin 1) j p)) = V m c main_v6 (ix3 (⟨t.val, ht8⟩ : Fin 8) j p)
    refine congrArg (V m c main_v6) (funext fun a => Fin.ext ?_)
    match a with
    | ⟨0, _⟩ => show win0_0.index t (0 : Fin 3) * 1 + 1 * 0 = t.val; omega
    | ⟨1, _⟩ => show win0_0.index t (1 : Fin 3) * 64 + 1 * j.val = j.val; omega
    | ⟨2, _⟩ => show win0_0.index t (2 : Fin 3) * 3136 + 1 * p.val = p.val; omega
  · intro j o
    show V m c main_v0 (((cfg0.win 1).blk t).view.emb (ix2 j o)) = V m c main_v0 (ix2 j o)
    refine congrArg (V m c main_v0) (funext fun a => Fin.ext ?_)
    match a with
    | ⟨0, _⟩ => show win0_1.index t (0 : Fin 2) * 64 + 1 * j.val = j.val; omega
    | ⟨1, _⟩ => show win0_1.index t (1 : Fin 2) * 32 + 1 * o.val = o.val; omega
  · intro j o
    show V m c main_v1 (((cfg0.win 2).blk t).view.emb (ix2 j o)) = V m c main_v1 (ix2 j o)
    refine congrArg (V m c main_v1) (funext fun a => Fin.ext ?_)
    match a with
    | ⟨0, _⟩ => show win0_2.index t (0 : Fin 2) * 64 + 1 * j.val = j.val; omega
    | ⟨1, _⟩ => show win0_2.index t (1 : Fin 2) * 32 + 1 * o.val = o.val; omega
  · intro j o
    show V m c main_v5 (((cfg0.win 3).blk t).view.emb (ix2 j o)) = V m c main_v5 (ix2 j o)
    refine congrArg (V m c main_v5) (funext fun a => Fin.ext ?_)
    match a with
    | ⟨0, _⟩ => show win0_3.index t (0 : Fin 2) * 64 + 1 * j.val = j.val; omega
    | ⟨1, _⟩ => show win0_3.index t (1 : Fin 2) * 32 + 1 * o.val = o.val; omega
  · have hy : (y 0).val < 1 := (y 0).isLt
    show win0_4.index t (0 : Fin 3) * 1 + 1 * (y 0).val = t.val
    omega
  · show win0_4.index t (1 : Fin 3) * 32 + 1 * (y 1).val = (y 1).val
    omega
  · show win0_4.index t (2 : Fin 3) * 3136 + 1 * (y 2).val = (y 2).val
    omega

/-- An index of the result array is in point `t`'s block iff each coordinate is in the block's range on its axis. -/
theorem mem_blk (t : Fin cfg0.N) (i : S8x32x3136.Idx) :
    i ∈ ((cfg0.win 4).blk t).view.set ↔ ∀ a : Fin 3, win0_4.index t a * S1x32x3136.size a ≤ (i a).val ∧ (i a).val < win0_4.index t a * S1x32x3136.size a + S1x32x3136.size a := by
  show i ∈ ((View.whole main_v7).slice (win0_4.rect t)).set ↔ _
  rw [View.set_slice_whole, Rect.mem_set_unit]
  exact Iff.rfl

/-- Every index of the result array is in the block of the point its batch coordinate names. -/
theorem cover (i : S8x32x3136.Idx) : ∃ t : Fin cfg0.N, (cfg0.win 4).flush t = true ∧ i ∈ ((cfg0.win 4).blk t).view.set := by
  have hi0 : (i 0).val < 8 := (i 0).isLt
  have hi1 : (i 1).val < 32 := (i 1).isLt
  have hi2 : (i 2).val < 3136 := (i 2).isLt
  have hN : cfg0.N = 8 := N_0
  have ht : (i 0).val < cfg0.N := by rw [hN]; exact hi0
  obtain ⟨-, -, -, -, -, -, -, -, -, e40, e41, e42⟩ := idx_facts ⟨(i 0).val, ht⟩
  have e40' : win0_4.index ⟨(i 0).val, ht⟩ (0 : Fin 3) = (i 0).val := e40
  refine ⟨⟨(i 0).val, ht⟩, flush0_4 _, ?_⟩
  rw [mem_blk]
  intro a
  match a with
  | ⟨0, _⟩ =>
    show win0_4.index ⟨(i 0).val, ht⟩ (0 : Fin 3) * 1 ≤ (i 0).val ∧ (i 0).val < win0_4.index ⟨(i 0).val, ht⟩ (0 : Fin 3) * 1 + 1
    omega
  | ⟨1, _⟩ =>
    show win0_4.index ⟨(i 0).val, ht⟩ (1 : Fin 3) * 32 ≤ (i 1).val ∧ (i 1).val < win0_4.index ⟨(i 0).val, ht⟩ (1 : Fin 3) * 32 + 32
    omega
  | ⟨2, _⟩ =>
    show win0_4.index ⟨(i 0).val, ht⟩ (2 : Fin 3) * 3136 ≤ (i 2).val ∧ (i 2).val < win0_4.index ⟨(i 0).val, ht⟩ (2 : Fin 3) * 3136 + 3136
    omega

/-- THE ARRAY after the region: its function of the four staged arrays. -/
theorem final (c : Dev nD) :
    (dats (F := Ideal) m 0 c).arrAt 4 cfg0.N = region (V m c main_v6) (V m c main_v0) (V m c main_v1) (V m c main_v5) :=
  (dats (F := Ideal) m 0 c).arrAt_eq_of_cover 4 _ (fun t _ => flushed_eq m c t) cover

end Cert.KernelIdeal.Region

end
-- ==== Proof.Host.lean ====
/-
  The host steps around the region, and the whole program's result.

  Before the region the program squeezes the two bound arrays from `[64, 1, 1, 32]` to `[64, 32]`, computes from them the
  constant `4 / ((rb − lb) · (rb − lb))` per channel pair, and flattens the input's two spatial axes into one of
  `3136 = 56 · 56` positions, position `56 · h + w` for `(h, w)`.  After the region it unflattens the result's position
  axis.  Reading each step at an index, the program's result at `(n, o, h, w)` is the specified sum over the channels.
-/
import proofs.«155447_j58660663328909_2_alg».proof.Proof.Region
import Idealize.ShloMosaic.Lib.StableHlo.Run

set_option maxRecDepth 16384

noncomputable section

namespace Cert.KernelIdeal.Host

open Cert.KernelIdeal Cert.KernelIdeal.Gen Cert.KernelIdeal.Region
open Idealize.ShloMosaic Idealize.ShloMosaic.TcCoe Idealize.ShloMosaic.ValueIdx Idealize.ShloMosaic.Tactic
open Idealize.SL Idealize.SL.Sem Idealize.ShloMosaic.StableHlo

/-- The flattened position of `(h, w)`. -/
def pos (h w : Fin 56) : Fin 3136 := ⟨h.val * 56 + w.val, by have := h.isLt; have := w.isLt; omega⟩

/-- A `[64, 1, 1, 32]` array squeezed to `[64, 32]` reads, at `(j, o)`, the operand at `(j, 0, 0, o)`. -/
theorem squeeze_apply {α : Type} (x : (⟨4, ![64, 1, 1, 32]⟩ : Shape).Idx → α)
    (hc : (⟨4, ![64, 1, 1, 32]⟩ : Shape).ShapeCasts ⟨2, ![64, 32]⟩) (j : Fin 64) (o : Fin 32) :
    shapeCast ⟨2, ![64, 32]⟩ x hc (ix2 j o) = x (ix4 j (0 : Fin 1) (0 : Fin 1) o) :=
  shapeCast_apply x hc _ _ (by
    rw [Shape.rowMajor_val_four, Shape.rowMajor_val_two]
    show ((j.val * 1 + 0) * 1 + 0) * 32 + o.val = j.val * 32 + o.val
    omega)

/-- An `[8, 64, 56, 56]` array with its last two axes flattened reads, at `(n, j, 56·h + w)`, the operand at
    `(n, j, h, w)`. -/
theorem flatten_apply {α : Type} (x : (⟨4, ![8, 64, 56, 56]⟩ : Shape).Idx → α)
    (hc : (⟨4, ![8, 64, 56, 56]⟩ : Shape).ShapeCasts ⟨3, ![8, 64, 3136]⟩) (n : Fin 8) (j : Fin 64) (h w : Fin 56) :
    shapeCast ⟨3, ![8, 64, 3136]⟩ x hc (ix3 n j (pos h w)) = x (ix4 n j h w) :=
  shapeCast_apply x hc _ _ (by
    rw [Shape.rowMajor_val_four, Shape.rowMajor_val_three]
    show ((n.val * 64 + j.val) * 56 + h.val) * 56 + w.val = (n.val * 64 + j.val) * 3136 + (h.val * 56 + w.val)
    omega)

/-- An `[8, 32, 3136]` array with its last axis unflattened reads, at `(n, o, h, w)`, the operand at
    `(n, o, 56·h + w)`. -/
theorem unflatten_apply {α : Type} (y : (⟨3, ![8, 32, 3136]⟩ : Shape).Idx → α)
    (hc : (⟨3, ![8, 32, 3136]⟩ : Shape).ShapeCasts ⟨4, ![8, 32, 56, 56]⟩) (n : Fin 8) (o : Fin 32) (h w : Fin 56) :
    shapeCast ⟨4, ![8, 32, 56, 56]⟩ y hc (ix4 n o h w) = y (ix3 n o (pos h w)) :=
  shapeCast_apply y hc _ _ (by
    rw [Shape.rowMajor_val_three, Shape.rowMajor_val_four]
    show (n.val * 32 + o.val) * 3136 + (h.val * 56 + w.val) = ((n.val * 32 + o.val) * 56 + h.val) * 56 + w.val
    omega)

variable (m : (ℓ : Loc nD τ sig) → Buf (Elt Ideal) ℓ)

/-! ## The four arrays the region stages, as the host steps before it leave them -/

theorem V_lb (c : Dev nD) : (V m c main_v0 : S64x32.Idx → EReal)
    = shapeCast S64x32 (m ((c.tc : Thread nD τ).loc main_arg1)) shapeCasts_S64x1x1x32_S64x32 := by
  show StableHlo.after hostOps0 (fun b => m (c, b)) (Proc.devRef .tc main_v0) = _
  after_results
  rfl

theorem V_rb (c : Dev nD) : (V m c main_v1 : S64x32.Idx → EReal)
    = shapeCast S64x32 (m ((c.tc : Thread nD τ).loc main_arg2)) shapeCasts_S64x1x1x32_S64x32 := by
  show StableHlo.after hostOps0 (fun b => m (c, b)) (Proc.devRef .tc main_v1) = _
  after_results
  rfl

theorem V_x (c : Dev nD) : (V m c main_v6 : S8x64x3136.Idx → EReal)
    = shapeCast S8x64x3136 (m ((c.tc : Thread nD τ).loc main_arg0)) shapeCasts_S8x64x56x56_S8x64x3136 := by
  show StableHlo.after hostOps0 (fun b => m (c, b)) (Proc.devRef .tc main_v6) = _
  after_results
  rfl

theorem V_nc (c : Dev nD) : (V m c main_v5 : S64x32.Idx → EReal)
    = Host.divf (F := Ideal) (broadcastInDim S64x32 ![] bcast_S_S64x32 (constant (F := Ideal) S_ .f32 0x40800000#32))
        (mulf (subf (shapeCast S64x32 (m ((c.tc : Thread nD τ).loc main_arg2)) shapeCasts_S64x1x1x32_S64x32)
                (shapeCast S64x32 (m ((c.tc : Thread nD τ).loc main_arg1)) shapeCasts_S64x1x1x32_S64x32))
          (subf (shapeCast S64x32 (m ((c.tc : Thread nD τ).loc main_arg2)) shapeCasts_S64x1x1x32_S64x32)
                (shapeCast S64x32 (m ((c.tc : Thread nD τ).loc main_arg1)) shapeCasts_S64x1x1x32_S64x32))) := by
  show StableHlo.after hostOps0 (fun b => m (c, b)) (Proc.devRef .tc main_v5) = _
  after_results
  rfl

theorem V_lb_apply (c : Dev nD) (j : Fin 64) (o : Fin 32) :
    V m c main_v0 (ix2 j o) = m ((c.tc : Thread nD τ).loc main_arg1) (ix4 j (0 : Fin 1) (0 : Fin 1) o) :=
  (congrFun (V_lb m c) (ix2 j o)).trans (squeeze_apply _ _ j o)

theorem V_rb_apply (c : Dev nD) (j : Fin 64) (o : Fin 32) :
    V m c main_v1 (ix2 j o) = m ((c.tc : Thread nD τ).loc main_arg2) (ix4 j (0 : Fin 1) (0 : Fin 1) o) :=
  (congrFun (V_rb m c) (ix2 j o)).trans (squeeze_apply _ _ j o)

theorem V_x_apply (c : Dev nD) (n : Fin 8) (j : Fin 64) (h w : Fin 56) :
    V m c main_v6 (ix3 n j (pos h w)) = m ((c.tc : Thread nD τ).loc main_arg0) (ix4 n j h w) :=
  (congrFun (V_x m c) (ix3 n j (pos h w))).trans (flatten_apply _ _ n j h w)

theorem V_nc_apply (c : Dev nD) (j : Fin 64) (o : Fin 32) :
    V m c main_v5 (ix2 j o)
      = Spec.normc (m ((c.tc : Thread nD τ).loc main_arg1) (ix4 j (0 : Fin 1) (0 : Fin 1) o))
          (m ((c.tc : Thread nD τ).loc main_arg2) (ix4 j (0 : Fin 1) (0 : Fin 1) o)) := by
  have hb : (broadcastInDim S64x32 ![] bcast_S_S64x32 (constant (F := Ideal) S_ .f32 0x40800000#32) (ix2 j o) : EReal)
      = Ideal.ofBits .f32 0x40800000#32 :=
    broadcastInDim_apply _ bcast_S_S64x32 (constant (F := Ideal) S_ .f32 0x40800000#32) (ix2 j o) (fun a => a.elim0)
      (fun a => a.elim0)
  have hrb : (shapeCast S64x32 (m ((c.tc : Thread nD τ).loc main_arg2)) shapeCasts_S64x1x1x32_S64x32 (ix2 j o) : EReal)
      = m ((c.tc : Thread nD τ).loc main_arg2) (ix4 j (0 : Fin 1) (0 : Fin 1) o) := squeeze_apply _ _ j o
  have hlb : (shapeCast S64x32 (m ((c.tc : Thread nD τ).loc main_arg1)) shapeCasts_S64x1x1x32_S64x32 (ix2 j o) : EReal)
      = m ((c.tc : Thread nD τ).loc main_arg1) (ix4 j (0 : Fin 1) (0 : Fin 1) o) := squeeze_apply _ _ j o
  refine (congrFun (V_nc m c) (ix2 j o)).trans ?_
  unfold Spec.normc
  refine congrArg₂ Ideal.div hb ?_
  exact congrArg₂ (fun a b : EReal => a * b) (congrArg₂ (fun a b : EReal => a - b) hrb hlb)
    (congrArg₂ (fun a b : EReal => a - b) hrb hlb)

/-! ## The step after the region, and the result -/

/-- The program's result array is the region's array with its position axis unflattened. -/
theorem tail_eq (c : Dev nD) :
    (Pipeline.afterTail₀ cfgs (dats (F := Ideal) m) 0 (V0 m) [hostOps1] c main_v8 : S8x32x56x56.Idx → EReal)
      = shapeCast S8x32x56x56 (region (V m c main_v6) (V m c main_v0) (V m c main_v1) (V m c main_v5))
          shapeCasts_S8x32x3136_S8x32x56x56 := by
  have hw : Pipeline.withArrays (cfgs 0).spec c (V0 m c) (fun w => (dats (F := Ideal) m 0 c).arrAt w (cfgs 0).N) (Proc.devRef .tc main_v7)
      = region (V m c main_v6) (V m c main_v0) (V m c main_v1) (V m c main_v5) :=
    (Pipeline.withArrays_arr spec0 launch0.win.arr_inj c _ _ 4).trans (final m c)
  unfold Pipeline.afterTail₀
  show StableHlo.after hostOps1 _ (Proc.devRef .tc main_v8) = _
  after_results
  rw [hw]
  rfl

/-- THE PROGRAM'S RESULT is the specified function of its three arguments. -/
theorem result_eq (c : Dev nD) :
    (Pipeline.afterTail₀ cfgs (dats (F := Ideal) m) 0 (V0 m) [hostOps1] c main_v8 : S8x32x56x56.Idx → EReal)
      = Spec.result (m ((c.tc : Thread nD τ).loc main_arg0)) (m ((c.tc : Thread nD τ).loc main_arg1))
          (m ((c.tc : Thread nD τ).loc main_arg2)) := by
  rw [tail_eq]
  funext i
  obtain ⟨n, o, h, w, rfl⟩ : ∃ (n : Fin 8) (o : Fin 32) (h w : Fin 56), i = ix4 n o h w := ⟨i 0, i 1, i 2, i 3, eq_ix4 i⟩
  rw [unflatten_apply, Spec.result_apply]
  show regionAt (V m c main_v6) (V m c main_v0) (V m c main_v1) (V m c main_v5) n o (pos h w) = _
  unfold regionAt Spec.resultAt
  refine Finset.sum_congr rfl fun j _ => ?_
  rw [V_x_apply, V_lb_apply, V_rb_apply, V_nc_apply]

/-- THE RUN: every weakly fair execution of the idealized kernel program terminates with its result at the specified
    function of the arguments, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = Spec.result (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Host

end
-- ==== Proof.lean ====
/-
  The kernel and its reference compute the same array on the extended reals.

  Both map an input `x[n, c, h, w]` (8 × 64 × 56 × 56) and per-channel bounds `lb[c, o]`, `rb[c, o]` (64 × 32, stored
  `[64, 1, 1, 32]`) to the array whose entry `(n, o, h, w)` is the sum over the sixty-four input channels `c` of
      ( clip₀₁(x − lb) · clip₀₁(rb − x) · 4 / ((rb − lb) · (rb − lb)) )².
  The reference forms all `8 · 64 · 56 · 56 · 32` terms at once, clips each ramp to `[-1, 1]` and then cuts the
  negatives off, sums over the channel axis and transposes.  The kernel flattens the spatial axes, takes one batch entry
  per grid point, zeroes its output block and adds the channels' contributions one at a time in a loop, each ramp
  clipped to `[0, 1]` directly; the normalising constants are computed once before the launch.
  The two agree because: clipping to `[-1, 1]` and then cutting negatives off is clipping to `[0, 1]` in any linear order
  with `-1 ≤ 0 ≤ 1` (`Spec.relu_clip`); the loop's running total starting from zero is the sum over the channels, addition
  of extended reals being associative with `0` neutral; and the layout steps only rename indices.  Neither fact needs
  the inputs to be finite, so the precondition is used by no conjunct.
  The three frame conjuncts are the two generated frame certificates and the reference's generated run; no operation of
  the kernel was rewritten for the idealized reading, so the fourth conjunct is `True`.
-/
import proofs.«155447_j58660663328909_2_alg».proof.Defs
import proofs.«155447_j58660663328909_2_alg».proof.Proof.Gen.Kernel
import proofs.«155447_j58660663328909_2_alg».proof.Proof.Gen.Kernel.Skeleton
import proofs.«155447_j58660663328909_2_alg».proof.Proof.Gen.Kernel.Loops
import proofs.«155447_j58660663328909_2_alg».proof.Proof.Gen.Kernel.Launch
import proofs.«155447_j58660663328909_2_alg».proof.Proof.Gen.Kernel.Points
import proofs.«155447_j58660663328909_2_alg».proof.Proof.Gen.Kernel.Frame
import proofs.«155447_j58660663328909_2_alg».proof.Proof.Gen.KernelIdeal
import proofs.«155447_j58660663328909_2_alg».proof.Proof.Gen.KernelIdeal.Skeleton
import proofs.«155447_j58660663328909_2_alg».proof.Proof.Gen.KernelIdeal.Loops
import proofs.«155447_j58660663328909_2_alg».proof.Proof.Gen.KernelIdeal.Launch
import proofs.«155447_j58660663328909_2_alg».proof.Proof.Gen.KernelIdeal.Points
import proofs.«155447_j58660663328909_2_alg».proof.Proof.Gen.KernelIdeal.Frame
import proofs.«155447_j58660663328909_2_alg».proof.Proof.Gen.ReferenceIdeal
import proofs.«155447_j58660663328909_2_alg».proof.Proof.Gen.ReferenceIdeal.Run
import proofs.«155447_j58660663328909_2_alg».proof.Proof.Gen.ReferenceIdeal.Read
import proofs.«155447_j58660663328909_2_alg».proof.Proof.Gen.Pre_finite_inputs
import proofs.«155447_j58660663328909_2_alg».proof.Proof.Spec
import proofs.«155447_j58660663328909_2_alg».proof.Proof.RefIsSpec
import proofs.«155447_j58660663328909_2_alg».proof.Proof.Host
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end at the specified function of them. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Host.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v22_eq, Cert.ReferenceIdeal.IsSpec.ref_is_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
